-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x625000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S5000 : Shape := ⟨1, ![5000]⟩

abbrev nBuf : Space → Nat
  | .hbm => 90
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x625000, .i32⟩
  | .hbm, ⟨9, _⟩ => ⟨S625000, .i32⟩
  | .hbm, ⟨10, _⟩ => ⟨S1x625000, .i32⟩
  | .hbm, ⟨11, _⟩ => ⟨S625000, .i32⟩
  | .hbm, ⟨12, _⟩ => ⟨S_, .i32⟩
  | .hbm, ⟨13, _⟩ => ⟨S625000, .i32⟩
  | .hbm, ⟨14, _⟩ => ⟨S625000, .i1⟩
  | .hbm, ⟨15, _⟩ => ⟨S_, .i32⟩
  | .hbm, ⟨16, _⟩ => ⟨S625000, .i32⟩
  | .hbm, ⟨17, _⟩ => ⟨S625000, .i32⟩
  | .hbm, ⟨18, _⟩ => ⟨S625000, .i32⟩
  | .hbm, ⟨19, _⟩ => ⟨S625000x1, .i32⟩
  | .hbm, ⟨20, _⟩ => ⟨S625000x128, .f32⟩
  | .hbm, ⟨21, _⟩ => ⟨S_, .f32⟩
  | .hbm, ⟨22, _⟩ => ⟨S100000x128, .f32⟩
  | .hbm, ⟨23, _⟩ => ⟨S625000x1, .i32⟩
  | .hbm, ⟨24, _⟩ => ⟨S100000x128, .f32⟩
  | .hbm, ⟨25, _⟩ => ⟨S_, .f32⟩
  | .hbm, ⟨26, _⟩ => ⟨S625000, .f32⟩
  | .hbm, ⟨27, _⟩ => ⟨S_, .f32⟩
  | .hbm, ⟨28, _⟩ => ⟨S100000, .f32⟩
  | .hbm, ⟨29, _⟩ => ⟨S625000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S625000, .i32⟩
  | .hbm, ⟨43, _⟩ => ⟨S625000, .i1⟩
  | .hbm, ⟨44, _⟩ => ⟨S_, .i32⟩
  | .hbm, ⟨45, _⟩ => ⟨S625000, .i32⟩
  | .hbm, ⟨46, _⟩ => ⟨S625000, .i32⟩
  | .hbm, ⟨47, _⟩ => ⟨S625000, .i32⟩
  | .hbm, ⟨48, _⟩ => ⟨S625000x1, .i32⟩
  | .hbm, ⟨49, _⟩ => ⟨S625000x128, .f32⟩
  | .hbm, ⟨50, _⟩ => ⟨S_, .f32⟩
  | .hbm, ⟨51, _⟩ => ⟨S100000x128, .f32⟩
  | .hbm, ⟨52, _⟩ => ⟨S625000x1, .i32⟩
  | .hbm, ⟨53, _⟩ => ⟨S100000x128, .f32⟩
  | .hbm, ⟨54, _⟩ => ⟨S_, .f32⟩
  | .hbm, ⟨55, _⟩ => ⟨S625000, .f32⟩
  | .hbm, ⟨56, _⟩ => ⟨S_, .f32⟩
  | .hbm, ⟨57, _⟩ => ⟨S100000, .f32⟩
  | .hbm, ⟨58, _⟩ => ⟨S625000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S128x128, .f32⟩
  | .hbm, ⟨67, _⟩ => ⟨S128x128, .f32⟩
  | .hbm, ⟨68, _⟩ => ⟨S1x128, .f32⟩
  | .hbm, ⟨69, _⟩ => ⟨S100000x128, .f32⟩
  | .hbm, ⟨70, _⟩ => ⟨S_, .i32⟩
  | .hbm, ⟨71, _⟩ => ⟨S625000, .i32⟩
  | .hbm, ⟨72, _⟩ => ⟨S625000, .i1⟩
  | .hbm, ⟨73, _⟩ => ⟨S_, .i32⟩
  | .hbm, ⟨74, _⟩ => ⟨S625000, .i32⟩
  | .hbm, ⟨75, _⟩ => ⟨S625000, .i32⟩
  | .hbm, ⟨76, _⟩ => ⟨S625000, .i32⟩
  | .hbm, ⟨77, _⟩ => ⟨S625000x1, .i32⟩
  | .hbm, ⟨78, _⟩ => ⟨S625000x128, .f32⟩
  | .hbm, ⟨79, _⟩ => ⟨S_, .i32⟩
  | .hbm, ⟨80, _⟩ => ⟨S625000, .i32⟩
  | .hbm, ⟨81, _⟩ => ⟨S625000, .i1⟩
  | .hbm, ⟨82, _⟩ => ⟨S_, .i32⟩
  | .hbm, ⟨83, _⟩ => ⟨S625000, .i32⟩
  | .hbm, ⟨84, _⟩ => ⟨S625000, .i32⟩
  | .hbm, ⟨85, _⟩ => ⟨S625000, .i32⟩
  | .hbm, ⟨86, _⟩ => ⟨S625000x1, .i32⟩
  | .hbm, ⟨87, _⟩ => ⟨S625000x128, .f32⟩
  | .hbm, ⟨88, _⟩ => ⟨S625000x1, .f32⟩
  | .hbm, ⟨89, _⟩ => ⟨S625000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S625000x1_S625000 : S625000x1.ShapeCasts S625000
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S625000x128.size a
  hwx2_0 : ∀ i : grid2.Coords, EltTy.bits .f32 = 32 ∨ (Rect.block (s := S625000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S625000x128.size a
  hwx2_1 : ∀ i : grid2.Coords, EltTy.bits .f32 = 32 ∨ (Rect.block (s := S625000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S625000x1.size a
  hwx2_2 : ∀ i : grid2.Coords, EltTy.bits .f32 = 32 ∨ (Rect.block (s := S625000x1) S5000x1.size (cc2_transform_2 i) (hinb2_2 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x625000, .i32⟩
  | .hbm, ⟨9, _⟩ => ⟨S625000, .i32⟩
  | .hbm, ⟨10, _⟩ => ⟨S1x625000, .i32⟩
  | .hbm, ⟨11, _⟩ => ⟨S625000, .i32⟩
  | .hbm, ⟨12, _⟩ => ⟨S_, .i32⟩
  | .hbm, ⟨13, _⟩ => ⟨S625000, .i32⟩
  | .hbm, ⟨14, _⟩ => ⟨S625000, .i1⟩
  | .hbm, ⟨15, _⟩ => ⟨S_, .i32⟩
  | .hbm, ⟨16, _⟩ => ⟨S625000, .i32⟩
  | .hbm, ⟨17, _⟩ => ⟨S625000, .i32⟩
  | .hbm, ⟨18, _⟩ => ⟨S625000, .i32⟩
  | .hbm, ⟨19, _⟩ => ⟨S625000x1, .i32⟩
  | .hbm, ⟨20, _⟩ => ⟨S625000x128, .f32⟩
  | .hbm, ⟨21, _⟩ => ⟨S_, .f32⟩
  | .hbm, ⟨22, _⟩ => ⟨S100000x128, .f32⟩
  | .hbm, ⟨23, _⟩ => ⟨S625000x1, .i32⟩
  | .hbm, ⟨24, _⟩ => ⟨S100000x128, .f32⟩
  | .hbm, ⟨25, _⟩ => ⟨S_, .f32⟩
  | .hbm, ⟨26, _⟩ => ⟨S625000, .f32⟩
  | .hbm, ⟨27, _⟩ => ⟨S_, .f32⟩
  | .hbm, ⟨28, _⟩ => ⟨S100000, .f32⟩
  | .hbm, ⟨29, _⟩ => ⟨S625000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S625000, .i32⟩
  | .hbm, ⟨50, _⟩ => ⟨S625000, .i1⟩
  | .hbm, ⟨51, _⟩ => ⟨S_, .i32⟩
  | .hbm, ⟨52, _⟩ => ⟨S625000, .i32⟩
  | .hbm, ⟨53, _⟩ => ⟨S625000, .i32⟩
  | .hbm, ⟨54, _⟩ => ⟨S625000, .i32⟩
  | .hbm, ⟨55, _⟩ => ⟨S625000x1, .i32⟩
  | .hbm, ⟨56, _⟩ => ⟨S625000x128, .f32⟩
  | .hbm, ⟨57, _⟩ => ⟨S_, .f32⟩
  | .hbm, ⟨58, _⟩ => ⟨S100000x128, .f32⟩
  | .hbm, ⟨59, _⟩ => ⟨S625000x1, .i32⟩
  | .hbm, ⟨60, _⟩ => ⟨S100000x128, .f32⟩
  | .hbm, ⟨61, _⟩ => ⟨S_, .f32⟩
  | .hbm, ⟨62, _⟩ => ⟨S625000, .f32⟩
  | .hbm, ⟨63, _⟩ => ⟨S_, .f32⟩
  | .hbm, ⟨64, _⟩ => ⟨S100000, .f32⟩
  | .hbm, ⟨65, _⟩ => ⟨S625000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | .hbm, ⟨81, _⟩ => ⟨S_, .i32⟩
  | .hbm, ⟨82, _⟩ => ⟨S625000, .i32⟩
  | .hbm, ⟨83, _⟩ => ⟨S625000, .i1⟩
  | .hbm, ⟨84, _⟩ => ⟨S_, .i32⟩
  | .hbm, ⟨85, _⟩ => ⟨S625000, .i32⟩
  | .hbm, ⟨86, _⟩ => ⟨S625000, .i32⟩
  | .hbm, ⟨87, _⟩ => ⟨S625000, .i32⟩
  | .hbm, ⟨88, _⟩ => ⟨S625000x1, .i32⟩
  | .hbm, ⟨89, _⟩ => ⟨S625000x128, .f32⟩
  | .hbm, ⟨90, _⟩ => ⟨S_, .i32⟩
  | .hbm, ⟨91, _⟩ => ⟨S625000, .i32⟩
  | .hbm, ⟨92, _⟩ => ⟨S625000, .i1⟩
  | .hbm, ⟨93, _⟩ => ⟨S_, .i32⟩
  | .hbm, ⟨94, _⟩ => ⟨S625000, .i32⟩
  | .hbm, ⟨95, _⟩ => ⟨S625000, .i32⟩
  | .hbm, ⟨96, _⟩ => ⟨S625000, .i32⟩
  | .hbm, ⟨97, _⟩ => ⟨S625000x1, .i32⟩
  | .hbm, ⟨98, _⟩ => ⟨S625000x128, .f32⟩
  | .hbm, ⟨99, _⟩ => ⟨S625000x128, .f32⟩
  | .hbm, ⟨100, _⟩ => ⟨S_, .f32⟩
  | .hbm, ⟨101, _⟩ => ⟨S625000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S625000x128_S625000_d1 : S625000x128.ReducesTo [1] S625000
  h_S_ : 0 < S_.numel
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its two results named. Between the launch and the return the program alternates
  stretches of host operations with three kernel regions; the buffer contents at the seven boundaries are a fold from
  the launch memory (`W0` … `W7`), and every execution ends with every unscoped buffer at the last boundary's
  contents. So the per-edge scores end at `W7` read at their buffer, the node features at `W7` read at theirs, and the
  eight arguments as launched.
-/
import proofs.«126099_j70437463654666_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two result buffers at the last boundary's
    contents and the arguments as launched: the launch over the program's segments, the last thread state read against
    the final state, once per buffer of interest. -/
theorem run : θ_run defs (onTc (τ := τ) (main (F := F))) ⟨m, fun _ => 0, ρ⟩ (fun r => ∀ c : Dev nD,
      r.2.mem ((c.tc : Thread nD τ).loc main_v65) = W7 m ρ c (Proc.devRef .tc main_v65)
      ∧ r.2.mem ((c.tc : Thread nD τ).loc main_v49) = W7 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v65 (by decide)),
       h c _ (mem_uc main_v49 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Named

end
-- ==== Proof.HostTerms.lean ====
/-
  The host-side building blocks both programs share, as functions of the arrays they read, and the reference's two
  results written with them.

  Both programs turn the edge list into a source row and a destination row, wrap negative node numbers by the node
  count, gather the source rows of a node-feature matrix, add them into their destination rows, divide each row by its
  in-degree (at least one), and apply a linear layer: mean · Wlᵀ + b + h · Wrᵀ. The first layer is followed by a
  maximum with zero; the second reads the first layer's result both as the features that are gathered and as the
  node's own row. The per-edge score is the sum over the 128 features of the product of the two gathered rows of x.
  None of the gather / scatter / divide steps is ever opened here: they are the same functions on both sides.
-/
import proofs.«126099_j70437463654666_1_alg».proof.ReferenceIdeal
import proofs.«126099_j70437463654666_1_alg».proof.Proof.Gen.ReferenceIdeal.Run

noncomputable section

namespace Cert.HostTerms

open Cert.ReferenceIdeal Cert.ReferenceIdeal.Gen Idealize.ShloMosaic Idealize.ShloMosaic.TcCoe Idealize.SL.Sem

variable {F : FTy → Type} [FloatOps F]

/-- Row 0 of the edge list: each edge's source node. -/
def srcOf (ei : (⟨S2x625000, .i32⟩ : BufTy).Contents (Elt F)) : (⟨S625000, .i32⟩ : BufTy).Contents (Elt F) :=
  shapeCast S625000 (extractStridedSlice S1x625000 ![0, 0] ei slices_S2x625000_S1x625000_0_0) shapeCasts_S1x625000_S625000

/-- Row 1 of the edge list: each edge's destination node. -/
def dstOf (ei : (⟨S2x625000, .i32⟩ : BufTy).Contents (Elt F)) : (⟨S625000, .i32⟩ : BufTy).Contents (Elt F) :=
  shapeCast S625000 (extractStridedSlice S1x625000 ![1, 0] ei slices_S2x625000_S1x625000_1_0) shapeCasts_S1x625000_S625000

/-- A row of node numbers as a column of gather indices, a negative number wrapped by the node count. -/
def wrapIdx (v : (⟨S625000, .i32⟩ : BufTy).Contents (Elt F)) : (⟨S625000x1, .i32⟩ : BufTy).Contents (Elt F) :=
  broadcastInDim S625000x1 ![0] bcast_S625000_S625000x1_0
    (select (cmpi .slt v (broadcastInDim S625000 ![] bcast_S_S625000 (constantI S_ 32 0#32)))
      (addi v (broadcastInDim S625000 ![] bcast_S_S625000 (constantI S_ 32 100000#32))) v)

/-- A row of node numbers as a column of scatter indices. -/
def colIdx (v : (⟨S625000, .i32⟩ : BufTy).Contents (Elt F)) : (⟨S625000x1, .i32⟩ : BufTy).Contents (Elt F) :=
  broadcastInDim S625000x1 ![0] bcast_S625000_S625000x1_0 v

/-- The rows of `h` at the edges' sources, added into the edges' destination rows. -/
def aggOf (h : (⟨S100000x128, .f32⟩ : BufTy).Contents (Elt F)) (s d : (⟨S625000, .i32⟩ : BufTy).Contents (Elt F)) :
    (⟨S100000x128, .f32⟩ : BufTy).Contents (Elt F) :=
  Host.scatterAdd scatter_S100000x128_S625000x1_S625000x128_1_0_0_1
    (broadcastInDim S100000x128 ![] bcast_S_S100000x128 (constant (F := F) S_ .f32 0x00000000#32))
    (colIdx d)
    (Host.gather gather_S100000x128_S625000x1_S625000x128_1_0_n_n_0_1_1128 h (wrapIdx s))

/-- Each node's in-degree, at least one. -/
def degOf (d : (⟨S625000, .i32⟩ : BufTy).Contents (Elt F)) : (⟨S100000, .f32⟩ : BufTy).Contents (Elt F) :=
  maximumf
    (Host.scatterAdd scatter_S100000_S625000x1_S625000_n_0_0_1
      (broadcastInDim S100000 ![] bcast_S_S100000 (constant (F := F) S_ .f32 0x00000000#32))
      (colIdx d)
      (broadcastInDim S625000 ![] bcast_S_S625000 (constant (F := F) S_ .f32 0x3F800000#32)))
    (broadcastInDim S100000 ![] bcast_S_S100000 (constant (F := F) S_ .f32 0x3F800000#32))

/-- The mean of the in-neighbours' rows of `h` (zero for a node with no in-neighbour). -/
def meanOf (h : (⟨S100000x128, .f32⟩ : BufTy).Contents (Elt F)) (s d : (⟨S625000, .i32⟩ : BufTy).Contents (Elt F)) :
    (⟨S100000x128, .f32⟩ : BufTy).Contents (Elt F) :=
  Host.divf (aggOf h s d)
    (broadcastInDim S100000x128 ![0, 1] bcast_S100000x1_S100000x128_0_1
      (broadcastInDim S100000x1 ![0] bcast_S100000_S100000x1_0 (degOf d)))

/-- The transpose of a weight matrix. -/
def tr (w : (⟨S128x128, .f32⟩ : BufTy).Contents (Elt F)) : (⟨S128x128, .f32⟩ : BufTy).Contents (Elt F) :=
  transpose S128x128 [1, 0] w transposes_S128x128_S128x128_1_0

/-- A bias vector as a 1 × 128 row. -/
def rowOf (b : (⟨S128, .f32⟩ : BufTy).Contents (Elt F)) : (⟨S1x128, .f32⟩ : BufTy).Contents (Elt F) :=
  broadcastInDim S1x128 ![1] bcast_S128_S1x128_1 b

/-- The linear layer on already transposed weights and a bias row: A · wl + b + H · wr. -/
def linT (A H : (⟨S100000x128, .f32⟩ : BufTy).Contents (Elt F)) (wl : (⟨S128x128, .f32⟩ : BufTy).Contents (Elt F))
    (b : (⟨S1x128, .f32⟩ : BufTy).Contents (Elt F)) (wr : (⟨S128x128, .f32⟩ : BufTy).Contents (Elt F)) :
    (⟨S100000x128, .f32⟩ : BufTy).Contents (Elt F) :=
  addf (addf (Host.dotGeneral dot_S100000x128_S128x128_S100000x128_1_0_0_1_n_n none A wl)
      (broadcastInDim S100000x128 ![0, 1] bcast_S1x128_S100000x128_0_1 b))
    (Host.dotGeneral dot_S100000x128_S128x128_S100000x128_1_0_0_1_n_n none H wr)

/-- The maximum with zero, entry by entry. -/
def relu (v : (⟨S100000x128, .f32⟩ : BufTy).Contents (Elt F)) : (⟨S100000x128, .f32⟩ : BufTy).Contents (Elt F) :=
  maximumf v (broadcastInDim S100000x128 ![] bcast_S_S100000x128 (constant (F := F) S_ .f32 0x00000000#32))

/-- One graph-convolution layer from the node features `h`. -/
def layerOf (h : (⟨S100000x128, .f32⟩ : BufTy).Contents (Elt F)) (s d : (⟨S625000, .i32⟩ : BufTy).Contents (Elt F))
    (wl : (⟨S128x128, .f32⟩ : BufTy).Contents (Elt F)) (b : (⟨S128, .f32⟩ : BufTy).Contents (Elt F))
    (wr : (⟨S128x128, .f32⟩ : BufTy).Contents (Elt F)) : (⟨S100000x128, .f32⟩ : BufTy).Contents (Elt F) :=
  linT (meanOf h s d) h (tr wl) (rowOf b) (tr wr)

/-- The rows of `x` at a row of node numbers. -/
def rowsAt (x : (⟨S100000x128, .f32⟩ : BufTy).Contents (Elt F)) (v : (⟨S625000, .i32⟩ : BufTy).Contents (Elt F)) :
    (⟨S625000x128, .f32⟩ : BufTy).Contents (Elt F) :=
  Host.gather gather_S100000x128_S625000x1_S625000x128_1_0_n_n_0_1_1128 x (wrapIdx v)

/-- The per-edge score as the reference computes it: the host's sum over the features of the product of the two rows. -/
def predOf (x : (⟨S100000x128, .f32⟩ : BufTy).Contents (Elt F)) (ei : (⟨S2x625000, .i32⟩ : BufTy).Contents (Elt F)) :
    (⟨S625000, .f32⟩ : BufTy).Contents (Elt F) :=
  Host.reduceAdd (mulf (rowsAt x (srcOf ei)) (rowsAt x (dstOf ei))) (constant (F := F) S_ .f32 0x00000000#32) reducesTo_S625000x128_S625000_d1 h_S_

/-- The node features after the two layers. -/
def featOf (x : (⟨S100000x128, .f32⟩ : BufTy).Contents (Elt F)) (ei : (⟨S2x625000, .i32⟩ : BufTy).Contents (Elt F))
    (w1l : (⟨S128x128, .f32⟩ : BufTy).Contents (Elt F)) (b1 : (⟨S128, .f32⟩ : BufTy).Contents (Elt F))
    (w1r w2l : (⟨S128x128, .f32⟩ : BufTy).Contents (Elt F)) (b2 : (⟨S128, .f32⟩ : BufTy).Contents (Elt F))
    (w2r : (⟨S128x128, .f32⟩ : BufTy).Contents (Elt F)) : (⟨S100000x128, .f32⟩ : BufTy).Contents (Elt F) :=
  layerOf (relu (layerOf x (srcOf ei) (dstOf ei) w1l b1 w1r)) (srcOf ei) (dstOf ei) w2l b2 w2r

/-- The reference's second result is the two layers applied to its arguments: its operations composed, read as they
    are written. -/
theorem ref_feat (m : (ℓ : Loc nD τ sig) → Buf (Elt F) ℓ) (c : Dev nD) :
    Cert.ReferenceIdeal.Value.res_main_v58 m c
      = featOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v58 featOf layerOf relu linT meanOf aggOf degOf tr rowOf colIdx wrapIdx srcOf dstOf
  rfl

end Cert.HostTerms

end
-- ==== Proof.KernelStages.lean ====
/-
  The idealized kernel's buffer contents at the boundaries between its host stretches and its three regions, read
  buffer by buffer. A host stretch rewrites the buffers its operations write and keeps every other; a region rewrites
  the arrays its windows stage and keeps every other. Each buffer a later step reads is stated here as the shared host
  function (source and destination rows, neighbour mean, transposed weights, gathered rows) of the contents one
  boundary earlier, or as unchanged.
-/
import proofs.«126099_j70437463654666_1_alg».proof.Proof.Gen.KernelIdeal.Frame
import proofs.«126099_j70437463654666_1_alg».proof.Proof.HostTerms
import Idealize.ShloMosaic.Lib.StableHlo.Run
import Idealize.ShloMosaic.PureOps.Ideal

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## Before the first region: the rows of the edge list, the first layer's neighbour mean, its weights -/

theorem s1_v1 (c : Dev nD) : W1 m ρ c (Proc.devRef .tc main_v1) = Cert.HostTerms.srcOf (F := Ideal) (m ((c : Thread nD τ).loc main_arg1)) := by
  show StableHlo.after hostOps0 (W0 m ρ c) (Proc.devRef .tc main_v1) = _
  after_results_simp
  unfold Cert.HostTerms.srcOf
  rfl
theorem s1_v3 (c : Dev nD) : W1 m ρ c (Proc.devRef .tc main_v3) = Cert.HostTerms.dstOf (F := Ideal) (m ((c : Thread nD τ).loc main_arg1)) := by
  show StableHlo.after hostOps0 (W0 m ρ c) (Proc.devRef .tc main_v3) = _
  after_results_simp
  unfold Cert.HostTerms.dstOf
  rfl
theorem s1_v22 (c : Dev nD) : W1 m ρ c (Proc.devRef .tc main_v22) = Cert.HostTerms.meanOf (F := Ideal) (m ((c : Thread nD τ).loc main_arg0)) (Cert.HostTerms.srcOf (m ((c : Thread nD τ).loc main_arg1))) (Cert.HostTerms.dstOf (m ((c : Thread nD τ).loc main_arg1))) := by
  show StableHlo.after hostOps0 (W0 m ρ c) (Proc.devRef .tc main_v22) = _
  after_results_simp
  unfold Cert.HostTerms.meanOf Cert.HostTerms.aggOf Cert.HostTerms.degOf Cert.HostTerms.colIdx Cert.HostTerms.wrapIdx Cert.HostTerms.srcOf Cert.HostTerms.dstOf
  rfl
theorem s1_v23 (c : Dev nD) : W1 m ρ c (Proc.devRef .tc main_v23) = Cert.HostTerms.tr (F := Ideal) (m ((c : Thread nD τ).loc main_arg2)) := by
  show StableHlo.after hostOps0 (W0 m ρ c) (Proc.devRef .tc main_v23) = _
  after_results_simp
  unfold Cert.HostTerms.tr
  rfl
theorem s1_v24 (c : Dev nD) : W1 m ρ c (Proc.devRef .tc main_v24) = Cert.HostTerms.tr (F := Ideal) (m ((c : Thread nD τ).loc main_arg4)) := by
  show StableHlo.after hostOps0 (W0 m ρ c) (Proc.devRef .tc main_v24) = _
  after_results_simp
  unfold Cert.HostTerms.tr
  rfl
theorem s1_v25 (c : Dev nD) : W1 m ρ c (Proc.devRef .tc main_v25) = shapeCast S1x128 (m ((c : Thread nD τ).loc main_arg3)) shapeCasts_S128_S1x128 := by
  show StableHlo.after hostOps0 (W0 m ρ c) (Proc.devRef .tc main_v25) = _
  after_results_simp <;> rfl
theorem s1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem s1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem s1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem s1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

/-! ## Across the first region: what it does not stage is kept, and so is an input it stages -/

theorem s2_v1 (c : Dev nD) : W2 m ρ c (Proc.devRef .tc main_v1) = W1 m ρ c (Proc.devRef .tc main_v1) := W2_of_ne m ρ c main_v1 (by decide)
theorem s2_v3 (c : Dev nD) : W2 m ρ c (Proc.devRef .tc main_v3) = W1 m ρ c (Proc.devRef .tc main_v3) := W2_of_ne m ρ c main_v3 (by decide)
theorem s2_arg5 (c : Dev nD) : W2 m ρ c (Proc.devRef .tc main_arg5) = W1 m ρ c (Proc.devRef .tc main_arg5) := W2_of_ne m ρ c main_arg5 (by decide)
theorem s2_arg6 (c : Dev nD) : W2 m ρ c (Proc.devRef .tc main_arg6) = W1 m ρ c (Proc.devRef .tc main_arg6) := W2_of_ne m ρ c main_arg6 (by decide)
theorem s2_arg7 (c : Dev nD) : W2 m ρ c (Proc.devRef .tc main_arg7) = W1 m ρ c (Proc.devRef .tc main_arg7) := W2_of_ne m ρ c main_arg7 (by decide)
theorem s2_arg0 (c : Dev nD) : W2 m ρ c (Proc.devRef .tc main_arg0) = W1 m ρ c (Proc.devRef .tc main_arg0) :=
  (W2_arr m ρ c 1).trans (((dat0 (V1 m ρ) c).arrAt_in 1 rfl _).trans (A_eq0 (V1 m ρ) c 1))

/-! ## Before the second region: the second layer's neighbour mean of the first layer's result, its weights -/

theorem s3_v45 (c : Dev nD) : W3 m ρ c (Proc.devRef .tc main_v45) = Cert.HostTerms.meanOf (F := Ideal) (W2 m ρ c (Proc.devRef .tc main_v26)) (W2 m ρ c (Proc.devRef .tc main_v1)) (W2 m ρ c (Proc.devRef .tc main_v3)) := by
  show StableHlo.after hostOps1 (W2 m ρ c) (Proc.devRef .tc main_v45) = _
  after_results_simp
  unfold Cert.HostTerms.meanOf Cert.HostTerms.aggOf Cert.HostTerms.degOf Cert.HostTerms.colIdx Cert.HostTerms.wrapIdx
  rfl
theorem s3_v46 (c : Dev nD) : W3 m ρ c (Proc.devRef .tc main_v46) = Cert.HostTerms.tr (F := Ideal) (W2 m ρ c (Proc.devRef .tc main_arg5)) := by
  show StableHlo.after hostOps1 (W2 m ρ c) (Proc.devRef .tc main_v46) = _
  after_results_simp
  unfold Cert.HostTerms.tr
  rfl
theorem s3_v47 (c : Dev nD) : W3 m ρ c (Proc.devRef .tc main_v47) = Cert.HostTerms.tr (F := Ideal) (W2 m ρ c (Proc.devRef .tc main_arg7)) := by
  show StableHlo.after hostOps1 (W2 m ρ c) (Proc.devRef .tc main_v47) = _
  after_results_simp
  unfold Cert.HostTerms.tr
  rfl
theorem s3_v48 (c : Dev nD) : W3 m ρ c (Proc.devRef .tc main_v48) = shapeCast S1x128 (W2 m ρ c (Proc.devRef .tc main_arg6)) shapeCasts_S128_S1x128 := by
  show StableHlo.after hostOps1 (W2 m ρ c) (Proc.devRef .tc main_v48) = _
  after_results_simp <;> rfl
theorem s3_v26 (c : Dev nD) : W3 m ρ c (Proc.devRef .tc main_v26) = W2 m ρ c (Proc.devRef .tc main_v26) := by
  show StableHlo.after hostOps1 (W2 m ρ c) (Proc.devRef .tc main_v26) = _
  after_results_simp <;> rfl
theorem s3_v1 (c : Dev nD) : W3 m ρ c (Proc.devRef .tc main_v1) = W2 m ρ c (Proc.devRef .tc main_v1) := by
  show StableHlo.after hostOps1 (W2 m ρ c) (Proc.devRef .tc main_v1) = _
  after_results_simp <;> rfl
theorem s3_v3 (c : Dev nD) : W3 m ρ c (Proc.devRef .tc main_v3) = W2 m ρ c (Proc.devRef .tc main_v3) := by
  show StableHlo.after hostOps1 (W2 m ρ c) (Proc.devRef .tc main_v3) = _
  after_results_simp <;> rfl
theorem s3_arg0 (c : Dev nD) : W3 m ρ c (Proc.devRef .tc main_arg0) = W2 m ρ c (Proc.devRef .tc main_arg0) := by
  show StableHlo.after hostOps1 (W2 m ρ c) (Proc.devRef .tc main_arg0) = _
  after_results_simp <;> rfl

/-! ## Across the second region -/

theorem s4_v1 (c : Dev nD) : W4 m ρ c (Proc.devRef .tc main_v1) = W3 m ρ c (Proc.devRef .tc main_v1) := W4_of_ne m ρ c main_v1 (by decide)
theorem s4_v3 (c : Dev nD) : W4 m ρ c (Proc.devRef .tc main_v3) = W3 m ρ c (Proc.devRef .tc main_v3) := W4_of_ne m ρ c main_v3 (by decide)
theorem s4_arg0 (c : Dev nD) : W4 m ρ c (Proc.devRef .tc main_arg0) = W3 m ρ c (Proc.devRef .tc main_arg0) := W4_of_ne m ρ c main_arg0 (by decide)

/-! ## Before the third region: the rows of x at each edge's two ends -/

theorem s5_v56 (c : Dev nD) : W5 m ρ c (Proc.devRef .tc main_v56) = Cert.HostTerms.rowsAt (F := Ideal) (W4 m ρ c (Proc.devRef .tc main_arg0)) (W4 m ρ c (Proc.devRef .tc main_v1)) := by
  show StableHlo.after hostOps2 (W4 m ρ c) (Proc.devRef .tc main_v56) = _
  after_results_simp
  unfold Cert.HostTerms.rowsAt Cert.HostTerms.wrapIdx
  rfl
theorem s5_v63 (c : Dev nD) : W5 m ρ c (Proc.devRef .tc main_v63) = Cert.HostTerms.rowsAt (F := Ideal) (W4 m ρ c (Proc.devRef .tc main_arg0)) (W4 m ρ c (Proc.devRef .tc main_v3)) := by
  show StableHlo.after hostOps2 (W4 m ρ c) (Proc.devRef .tc main_v63) = _
  after_results_simp
  unfold Cert.HostTerms.rowsAt Cert.HostTerms.wrapIdx
  rfl
theorem s5_v49 (c : Dev nD) : W5 m ρ c (Proc.devRef .tc main_v49) = W4 m ρ c (Proc.devRef .tc main_v49) := by
  show StableHlo.after hostOps2 (W4 m ρ c) (Proc.devRef .tc main_v49) = _
  after_results_simp <;> rfl

/-! ## Across the third region, and the last reshape -/

theorem s6_v49 (c : Dev nD) : W6 m ρ c (Proc.devRef .tc main_v49) = W5 m ρ c (Proc.devRef .tc main_v49) := W6_of_ne m ρ c main_v49 (by decide)
theorem s7_v65 (c : Dev nD) : W7 m ρ c (Proc.devRef .tc main_v65) = shapeCast S625000 (W6 m ρ c (Proc.devRef .tc main_v64)) shapeCasts_S625000x1_S625000 := by
  show StableHlo.after hostOps3 (W6 m ρ c) (Proc.devRef .tc main_v65) = _
  after_results_simp <;> rfl
theorem s7_v49 (c : Dev nD) : W7 m ρ c (Proc.devRef .tc main_v49) = W6 m ρ c (Proc.devRef .tc main_v49) := by
  show StableHlo.after hostOps3 (W6 m ρ c) (Proc.devRef .tc main_v49) = _
  after_results_simp <;> rfl

end Cert.KernelIdeal.Stages

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LayerAt.lean ====
/-
  A linear layer read at an index, at the ideal values. With A, H two M × 128 matrices, wl, wr two 128 × 128 matrices
  and b a 1 × 128 row, the layer's entry (r, q) is

      (∑ k, A (r, k) · wl (k, q)) + b (0, q) + ∑ k, H (r, k) · wr (k, q)          (`linAt`)

  The host's matrix product of an M × K matrix by a K × N matrix, contracted on the columns of the left operand and the
  rows of the right one, is at (i, j) the sum over k of left (i, k) · right (k, j) (`hostDot_apply`): the same sum a
  kernel's product into a zero accumulator gives. A sum over the extended reals needs no finiteness for any of this:
  only the order of three summands and the meaning of each operation are used. The per-edge score is the dot product
  of two rows of 128 features (`dotAt`).
-/
import Idealize.ShloMosaic.PureOps.Ideal.Laws
import Idealize.ShloMosaic.Lib.ValueIdx
import proofs.«126099_j70437463654666_1_alg».proof.Proof.LibPlainMatmul

noncomputable section

open scoped BigOperators

namespace Cert.LayerAt

open Idealize.ShloMosaic Idealize.ShloMosaic.ValueIdx

/-- Entry (r, q) of the linear layer: the aggregated row times the left weights, plus the bias, plus the node's own
    row times the right weights. -/
def linAt {M : Nat} (A H : (⟨2, ![M, 128]⟩ : Shape).Idx → EReal) (wl wr : (⟨2, ![128, 128]⟩ : Shape).Idx → EReal)
    (b : (⟨2, ![1, 128]⟩ : Shape).Idx → EReal) (r : Fin M) (q : Fin 128) : EReal :=
  (∑ k : Fin 128, A (ix2 r k) * wl (ix2 k q)) + b (ix2 0 q) + ∑ k : Fin 128, H (ix2 r k) * wr (ix2 k q)

/-- The dot product of row e of two M × 128 matrices. -/
def dotAt {M : Nat} (a b : (⟨2, ![M, 128]⟩ : Shape).Idx → EReal) (e : Fin M) : EReal :=
  ∑ k : Fin 128, a (ix2 e k) * b (ix2 e k)

/-- The host's plain matrix product at (i, j): the sum over k of left (i, k) · right (k, j). -/
theorem hostDot_apply {M K N : Nat} {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact PlainMatmul.lhs_row _ _
      | ⟨1, _⟩ => exact (PlainMatmul.lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (PlainMatmul.rhs_row _ _).trans hk
      | ⟨1, _⟩ => exact PlainMatmul.rhs_col _ _)
  rw [el, er]

end Cert.LayerAt

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.RegionValues.lean ====
/-
  What each of the three regions leaves in its output array, index by index, at the ideal values and for any contents V
  of the buffers when the region is entered.

  Regions 0 and 1 are the two linear layers. Each runs over 20 row blocks of 5000 rows: the body takes the block of the
  aggregated means and the block of the node features, both 5000 × 128, the two whole 128 × 128 weight matrices and the
  whole 1 × 128 bias row, and writes  means · wl + bias + features · wr  (region 0 then takes the maximum with 0) into the
  same rows of the output. Row p of block t is row 5000 t + p of the array, so the output array ends holding, at (r, q),
  the layer of the input arrays at (r, q): `region0_apply`, `region1_apply`.

  Region 2 is the edge score. It runs over 125 blocks of 5000 edges: the body multiplies two 5000 × 128 blocks entry by
  entry, sums each row over its 128 lanes and writes the sums as a 5000 × 1 column. The output array ends holding, at
  (e, 0), the sum over k of the two inputs' products at (e, k): `region2_apply`.

  The road is the same three times: the body at an index of its block (a matrix product into a zero accumulator is a sum of
  products; a change of element format is the identity at the ideal values); the index maps decided over the grid; what
  a point writes back is the block of ONE whole-array function; the blocks cover the array (row r is in block r / 5000);
  so the array ends holding that function.
-/
import proofs.«126099_j70437463654666_1_alg».proof.Proof.Gen.KernelIdeal.Frame
import proofs.«126099_j70437463654666_1_alg».proof.Proof.LayerAt
import proofs.«126099_j70437463654666_1_alg».proof.Proof.LibPlainMatmul
import proofs.«126099_j70437463654666_1_alg».proof.Proof.LibKeepdims
import Idealize.ShloMosaic.Lib.Pipeline.Value

set_option maxRecDepth 16384

noncomputable section

namespace Cert.KernelIdeal.RegionValues

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## The two layer bodies at an index of their block -/

/-- A product of a 5000 × 128 block by a 128 × 128 matrix into the zero accumulator, at (p, q). -/
theorem matmul_at (a : FVec Ideal S5000x128 .bf16) (w : FVec Ideal S128x128 .bf16) (p : Fin 5000) (q : Fin 128) :
    matmul dot_S5000x128_S128x128_S5000x128_1_0_0_1_n_n none a w (constant S5000x128 .f32 0x00000000#32) (ix2 p q)
      = ∑ k : Fin 128, a (ix2 p k) * w (ix2 k q) :=
  PlainMatmul.plainMatmul_apply (M := 5000) (K := 128) (N := 128) none a w p q

/-- The bias row broadcast along the rows, at (p, q): its entry (0, q). -/
theorem bias_at (b : Vec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun d => by
    match d with
    | ⟨0, _⟩ => show 0 = if (1 : Nat) = 1 then 0 else p.val; rw [if_pos rfl]
    | ⟨1, _⟩ => show q.val = if (128 : Nat) = 1 then 0 else q.val; rw [if_neg (by decide)])

/-- The first layer's body at (p, q) of its block: the linear layer there, cut below at zero. -/
theorem pay0_apply (x0 x1 : Vec Ideal S5000x128 .f32) (w1 w2 : Vec Ideal S128x128 .f32) (b : Vec Ideal S1x128 .f32)
    (p : Fin 5000) (q : Fin 128) :
    k0_pay1 x0 x1 w1 w2 b (ix2 p q) = max (Cert.LayerAt.linAt x0 x1 w1 w2 b p q) 0 := by
  unfold k0_pay1
  simp only [shapeCast_self]
  rw [maximumf_apply, addf_apply, addf_apply, broadcast_apply, matmul_at, matmul_at, bias_at]
  simp only [truncf_apply]
  rw [show (FloatOps.ofBits FTy.f32 0x00000000#32 : Ideal .f32) = 0 from Ideal.ofBits_zero_f32]
  rfl

/-- The second layer's body at (p, q) of its block: the linear layer there. -/
theorem pay1_apply (x0 x1 : Vec Ideal S5000x128 .f32) (w1 w2 : Vec Ideal S128x128 .f32) (b : Vec Ideal S1x128 .f32)
    (p : Fin 5000) (q : Fin 128) :
    k1_pay1 x0 x1 w1 w2 b (ix2 p q) = Cert.LayerAt.linAt x0 x1 w1 w2 b p q := by
  unfold k1_pay1
  simp only [shapeCast_self]
  rw [addf_apply, addf_apply, matmul_at, matmul_at, bias_at]
  simp only [truncf_apply]
  rfl

/-- The first layer's body at (p, q) of its block, when the two row blocks' rows p are rows r of two arrays: the layer of
    the arrays at (r, q), cut below at zero. -/
theorem pay0_block (x0 x1 : Vec Ideal S5000x128 .f32) (w1 w2 : Vec Ideal S128x128 .f32) (b : Vec Ideal S1x128 .f32)
    (A H : S100000x128.Idx → EReal) (p : Fin 5000) (q : Fin 128) (r : Fin 100000)
    (h0 : ∀ k : Fin 128, x0 (ix2 p k) = A (ix2 r k))
    (h1 : ∀ k : Fin 128, x1 (ix2 p k) = H (ix2 r k)) :
    k0_pay1 x0 x1 w1 w2 b (ix2 p q) = max (Cert.LayerAt.linAt A H w1 w2 b r q) 0 := by
  rw [pay0_apply]
  unfold Cert.LayerAt.linAt
  simp only [h0, h1]

/-- The second layer's body at (p, q) of its block, likewise: the layer of the arrays at (r, q). -/
theorem pay1_block (x0 x1 : Vec Ideal S5000x128 .f32) (w1 w2 : Vec Ideal S128x128 .f32) (b : Vec Ideal S1x128 .f32)
    (A H : S100000x128.Idx → EReal) (p : Fin 5000) (q : Fin 128) (r : Fin 100000)
    (h0 : ∀ k : Fin 128, x0 (ix2 p k) = A (ix2 r k))
    (h1 : ∀ k : Fin 128, x1 (ix2 p k) = H (ix2 r k)) :
    k1_pay1 x0 x1 w1 w2 b (ix2 p q) = Cert.LayerAt.linAt A H w1 w2 b r q := by
  rw [pay1_apply]
  unfold Cert.LayerAt.linAt
  simp only [h0, h1]

/-- An index of a rank-2 shape is a pair of coordinates. -/
theorem exists_ix2 {n0 n1 : Nat} (j : (⟨2, ![n0, n1]⟩ : Shape).Idx) : ∃ (p : Fin n0) (q : Fin n1), j = ix2 p q :=
  ⟨j 0, j 1, eq_ix2 j⟩

/-! ## Region 0: the first layer -/

/-- The index maps of region 0, decided over its 20 points: the two row-block inputs and the output move down the rows
    with the point, the weights and the bias stay whole. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the aggregated-mean block at point t is row 5000 t + p of its array. -/
theorem blk0_0 (c : Dev nD) (t : Fin cfg0.N) (p : Fin 5000) (k : Fin 128) (r : Fin 100000) (hr : r.val = t.val * 5000 + p.val) :
    (iblk0 V c 0 t : Vec Ideal S5000x128 .f32) (ix2 p k) = (V c main_v22 : S100000x128.Idx → EReal) (ix2 r k) := by
  obtain ⟨e0, e1, -⟩ := idx0 t
  show V c main_v22 (((cfg0.win 0).blk t).view.emb (ix2 p k)) = V c main_v22 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row p of the node-feature block at point t is row 5000 t + p of its array. -/
theorem blk0_1 (c : Dev nD) (t : Fin cfg0.N) (p : Fin 5000) (k : Fin 128) (r : Fin 100000) (hr : r.val = t.val * 5000 + p.val) :
    (iblk0 V c 1 t : Vec Ideal S5000x128 .f32) (ix2 p k) = (V c main_arg0 : S100000x128.Idx → EReal) (ix2 r k) := by
  obtain ⟨-, -, e0, e1, -⟩ := idx0 t
  show V c main_arg0 (((cfg0.win 1).blk t).view.emb (ix2 p k)) = V c main_arg0 (ix2 r k)
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The left weights' block is the whole array, at every point. -/
theorem blk0_2 (c : Dev nD) (t : Fin cfg0.N) :
    (iblk0 V c 2 t : Vec Ideal S128x128 .f32) = (V c main_v23 : S128x128.Idx → EReal) := by
  obtain ⟨-, -, -, -, e0, e1, -⟩ := idx0 t
  funext y
  show V c main_v23 (((cfg0.win 2).blk t).view.emb y) = V c main_v23 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row's block is the whole array, at every point. -/
theorem blk0_3 (c : Dev nD) (t : Fin cfg0.N) :
    (iblk0 V c 3 t : Vec Ideal S1x128 .f32) = (V c main_v25 : S1x128.Idx → EReal) := by
  obtain ⟨-, -, -, -, -, -, e0, e1, -⟩ := idx0 t
  funext y
  show V c main_v25 (((cfg0.win 3).blk t).view.emb y) = V c main_v25 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The right weights' block is the whole array, at every point. -/
theorem blk0_4 (c : Dev nD) (t : Fin cfg0.N) :
    (iblk0 V c 4 t : Vec Ideal S128x128 .f32) = (V c main_v24 : S128x128.Idx → EReal) := by
  obtain ⟨-, -, -, -, -, -, -, -, e0, e1, -⟩ := idx0 t
  funext y
  show V c main_v24 (((cfg0.win 4).blk t).view.emb y) = V c main_v24 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- What the first layer's output array ends holding: the layer of the region's input arrays, cut below at zero. -/
abbrev G0 (c : Dev nD) : S100000x128.Idx → EReal := fun i =>
  max (Cert.LayerAt.linAt (V c main_v22 : S100000x128.Idx → EReal) (V c main_arg0) (V c main_v23) (V c main_v24) (V c main_v25) (i 0) (i 1)) 0

set_option maxHeartbeats 400000 in
/-- What point t writes back is block t of that array. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [blk0_2, blk0_3, blk0_4]
  funext j
  obtain ⟨p, q, rfl⟩ := exists_ix2 (n0 := 5000) (n1 := 128) j
  obtain ⟨-, -, -, -, -, -, -, -, -, -, e0, e1⟩ := idx0 t
  have ht : t.val < 20 := lt_of_lt_of_eq t.isLt N_0
  have hr : t.val * 5000 + p.val < 100000 := by have := p.isLt; omega
  have hi : ((cfg0.win 5).blk t).view.emb (ix2 p q) = (ix2 ⟨t.val * 5000 + p.val, hr⟩ q : S100000x128.Idx) :=
    funext fun a => Fin.ext (by
      match a with
      | ⟨0, _⟩ => show win0_5.index t (0 : Fin 2) * 5000 + 1 * p.val = t.val * 5000 + p.val; omega
      | ⟨1, _⟩ => show win0_5.index t (1 : Fin 2) * 128 + 1 * q.val = q.val; omega)
  show k0_pay1 (iblk0 V c 0 t) (iblk0 V c 1 t) (V c main_v23) (V c main_v24) (V c main_v25) (ix2 p q)
    = G0 V c (((cfg0.win 5).blk t).view.emb (ix2 p q))
  rw [hi]
  exact pay0_block _ _ _ _ _ _ _ p q ⟨t.val * 5000 + p.val, hr⟩
    (fun k => blk0_0 V c t p k _ rfl) (fun k => blk0_1 V c t p k _ rfl)

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every row of the output array is in the block of the point its quotient by 5000 names. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  rw [mem_blk0]
  obtain ⟨-, -, -, -, -, -, -, -, -, -, e0, e1⟩ := idx0 ⟨(i 0).val / 5000, by rw [hN]; omega⟩
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, _⟩ (1 : Fin 2) * 128 ≤ (i 1).val ∧ (i 1).val < win0_5.index ⟨(i 0).val / 5000, _⟩ (1 : Fin 2) * 128 + 128
    rw [e1]; omega

/-- The first layer's output array after the region. -/
theorem final0 (c : Dev nD) : (dat0 V c).arrAt 5 cfg0.N = G0 V c :=
  (dat0 V c).arrAt_eq_of_cover 5 (G0 V c) (fun t _ => flushed0_eq V c t) cover0

/-- REGION 0: the first layer's output array at (r, q). -/
theorem region0_apply (c : Dev nD) (r : Fin 100000) (q : Fin 128) :
    ((dat0 V c).arrAt 5 cfg0.N : S100000x128.Idx → EReal) (ValueIdx.ix2 r q)
      = max (Cert.LayerAt.linAt (V c main_v22 : S100000x128.Idx → EReal) (V c main_arg0) (V c main_v23) (V c main_v24) (V c main_v25) r q) 0 := by
  rw [final0]

/-! ## Region 1: the second layer -/

/-- The index maps of region 1, decided over its 20 points: the two row-block inputs and the output move down the rows
    with the point, the weights and the bias stay whole. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the aggregated-mean block at point t is row 5000 t + p of its array. -/
theorem blk1_0 (c : Dev nD) (t : Fin cfg1.N) (p : Fin 5000) (k : Fin 128) (r : Fin 100000) (hr : r.val = t.val * 5000 + p.val) :
    (iblk1 V c 0 t : Vec Ideal S5000x128 .f32) (ix2 p k) = (V c main_v45 : S100000x128.Idx → EReal) (ix2 r k) := by
  obtain ⟨e0, e1, -⟩ := idx1 t
  show V c main_v45 (((cfg1.win 0).blk t).view.emb (ix2 p k)) = V c main_v45 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Row p of the node-feature block at point t is row 5000 t + p of its array. -/
theorem blk1_1 (c : Dev nD) (t : Fin cfg1.N) (p : Fin 5000) (k : Fin 128) (r : Fin 100000) (hr : r.val = t.val * 5000 + p.val) :
    (iblk1 V c 1 t : Vec Ideal S5000x128 .f32) (ix2 p k) = (V c main_v26 : S100000x128.Idx → EReal) (ix2 r k) := by
  obtain ⟨-, -, e0, e1, -⟩ := idx1 t
  show V c main_v26 (((cfg1.win 1).blk t).view.emb (ix2 p k)) = V c main_v26 (ix2 r k)
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The left weights' block is the whole array, at every point. -/
theorem blk1_2 (c : Dev nD) (t : Fin cfg1.N) :
    (iblk1 V c 2 t : Vec Ideal S128x128 .f32) = (V c main_v46 : S128x128.Idx → EReal) := by
  obtain ⟨-, -, -, -, e0, e1, -⟩ := idx1 t
  funext y
  show V c main_v46 (((cfg1.win 2).blk t).view.emb y) = V c main_v46 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's block is the whole array, at every point. -/
theorem blk1_3 (c : Dev nD) (t : Fin cfg1.N) :
    (iblk1 V c 3 t : Vec Ideal S1x128 .f32) = (V c main_v48 : S1x128.Idx → EReal) := by
  obtain ⟨-, -, -, -, -, -, e0, e1, -⟩ := idx1 t
  funext y
  show V c main_v48 (((cfg1.win 3).blk t).view.emb y) = V c main_v48 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The right weights' block is the whole array, at every point. -/
theorem blk1_4 (c : Dev nD) (t : Fin cfg1.N) :
    (iblk1 V c 4 t : Vec Ideal S128x128 .f32) = (V c main_v47 : S128x128.Idx → EReal) := by
  obtain ⟨-, -, -, -, -, -, -, -, e0, e1, -⟩ := idx1 t
  funext y
  show V c main_v47 (((cfg1.win 4).blk t).view.emb y) = V c main_v47 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- What the second layer's output array ends holding: the layer of the region's input arrays. -/
abbrev G1 (c : Dev nD) : S100000x128.Idx → EReal := fun i =>
  Cert.LayerAt.linAt (V c main_v45 : S100000x128.Idx → EReal) (V c main_v26) (V c main_v46) (V c main_v47) (V c main_v48) (i 0) (i 1)

set_option maxHeartbeats 400000 in
/-- What point t writes back is block t of that array. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [blk1_2, blk1_3, blk1_4]
  funext j
  obtain ⟨p, q, rfl⟩ := exists_ix2 (n0 := 5000) (n1 := 128) j
  obtain ⟨-, -, -, -, -, -, -, -, -, -, e0, e1⟩ := idx1 t
  have ht : t.val < 20 := lt_of_lt_of_eq t.isLt N_1
  have hr : t.val * 5000 + p.val < 100000 := by have := p.isLt; omega
  have hi : ((cfg1.win 5).blk t).view.emb (ix2 p q) = (ix2 ⟨t.val * 5000 + p.val, hr⟩ q : S100000x128.Idx) :=
    funext fun a => Fin.ext (by
      match a with
      | ⟨0, _⟩ => show win1_5.index t (0 : Fin 2) * 5000 + 1 * p.val = t.val * 5000 + p.val; omega
      | ⟨1, _⟩ => show win1_5.index t (1 : Fin 2) * 128 + 1 * q.val = q.val; omega)
  show k1_pay1 (iblk1 V c 0 t) (iblk1 V c 1 t) (V c main_v46) (V c main_v47) (V c main_v48) (ix2 p q)
    = G1 V c (((cfg1.win 5).blk t).view.emb (ix2 p q))
  rw [hi]
  exact pay1_block _ _ _ _ _ _ _ p q ⟨t.val * 5000 + p.val, hr⟩
    (fun k => blk1_0 V c t p k _ rfl) (fun k => blk1_1 V c t p k _ rfl)

/-- An index of the output array is in point t's block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v49).slice (win1_5.rect t)).set ↔ _
  rw [View.set_slice_whole, Rect.mem_set_unit]
  exact Iff.rfl

/-- Every row of the output array is in the block of the point its quotient by 5000 names. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk1]
  obtain ⟨-, -, -, -, -, -, -, -, -, -, e0, e1⟩ := idx1 ⟨(i 0).val / 5000, by rw [hN]; omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e1]; omega

/-- The second layer's output array after the region. -/
theorem final1 (c : Dev nD) : (dat1 V c).arrAt 5 cfg1.N = G1 V c :=
  (dat1 V c).arrAt_eq_of_cover 5 (G1 V c) (fun t _ => flushed1_eq V c t) cover1

/-- REGION 1: the second layer's output array at (r, q). -/
theorem region1_apply (c : Dev nD) (r : Fin 100000) (q : Fin 128) :
    ((dat1 V c).arrAt 5 cfg1.N : S100000x128.Idx → EReal) (ValueIdx.ix2 r q)
      = Cert.LayerAt.linAt (V c main_v45 : S100000x128.Idx → EReal) (V c main_v26) (V c main_v46) (V c main_v47) (V c main_v48) r q := by
  rw [final1]

/-! ## Region 2: the edge score -/

/-- The edge-score body at (p, 0) of its block: the sum over the 128 lanes of the two blocks' products on row p. -/
theorem pay2_apply (x0 x1 : Vec Ideal S5000x128 .f32) (p : Fin 5000) (z : Fin 1) :
    k2_pay1 x0 x1 (ix2 p z) = ∑ k : Fin 128, x0 (ix2 p k) * x1 (ix2 p k) := by
  unfold k2_pay1
  simp only [shapeCast_self]
  refine (Keepdims.cast_col_apply _ shapeCasts_S5000_S5000x1 p z).trans ?_
  refine (Keepdims.rowSum2_apply (mulf x0 x1) 0x00000000#32 reduces_S5000x128_S5000 _ _ p).trans ?_
  rfl

/-- The edge-score body at (p, 0) of its block, when the two blocks' rows p are rows e of two arrays. -/
theorem pay2_block (x0 x1 : Vec Ideal S5000x128 .f32) (A B : S625000x128.Idx → EReal) (p : Fin 5000) (z : Fin 1)
    (e : Fin 625000) (h0 : ∀ k : Fin 128, x0 (ix2 p k) = A (ix2 e k)) (h1 : ∀ k : Fin 128, x1 (ix2 p k) = B (ix2 e k)) :
    k2_pay1 x0 x1 (ix2 p z) = Cert.LayerAt.dotAt A B e := by
  rw [pay2_apply]
  unfold Cert.LayerAt.dotAt
  simp only [h0, h1]

/-- The index maps of region 2, decided over its 125 points: the two inputs and the output move down the edges with the
    point. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row p of the first input's block at point t is row 5000 t + p of its array. -/
theorem blk2_0 (c : Dev nD) (t : Fin cfg2.N) (p : Fin 5000) (k : Fin 128) (e : Fin 625000) (he : e.val = t.val * 5000 + p.val) :
    (iblk2 V c 0 t : Vec Ideal S5000x128 .f32) (ix2 p k) = (V c main_v56 : S625000x128.Idx → EReal) (ix2 e k) := by
  obtain ⟨e0, e1, -⟩ := idx2 t
  show V c main_v56 (((cfg2.win 0).blk t).view.emb (ix2 p k)) = V c main_v56 (ix2 e k)
  refine congrArg _ (funext fun a => Fin.ext ?_)
  match a with
  | ⟨0, _⟩ => show win2_0.index t (0 : Fin 2) * 5000 + 1 * p.val = e.val; omega
  | ⟨1, _⟩ => show win2_0.index t (1 : Fin 2) * 128 + 1 * k.val = k.val; omega

/-- Row p of the second input's block at point t is row 5000 t + p of its array. -/
theorem blk2_1 (c : Dev nD) (t : Fin cfg2.N) (p : Fin 5000) (k : Fin 128) (e : Fin 625000) (he : e.val = t.val * 5000 + p.val) :
    (iblk2 V c 1 t : Vec Ideal S5000x128 .f32) (ix2 p k) = (V c main_v63 : S625000x128.Idx → EReal) (ix2 e k) := by
  obtain ⟨-, -, e0, e1, -⟩ := idx2 t
  show V c main_v63 (((cfg2.win 1).blk t).view.emb (ix2 p k)) = V c main_v63 (ix2 e k)
  refine congrArg _ (funext fun a => Fin.ext ?_)
  match a with
  | ⟨0, _⟩ => show win2_1.index t (0 : Fin 2) * 5000 + 1 * p.val = e.val; omega
  | ⟨1, _⟩ => show win2_1.index t (1 : Fin 2) * 128 + 1 * k.val = k.val; omega

/-- What the edge-score array ends holding: at (e, 0) the sum over the lanes of the two inputs' products on row e. -/
abbrev G2 (c : Dev nD) : S625000x1.Idx → EReal := fun i =>
  Cert.LayerAt.dotAt (V c main_v56 : S625000x128.Idx → EReal) (V c main_v63) (i 0)

set_option maxHeartbeats 400000 in
/-- What point t writes back is block t of that array. -/
theorem flushed2_eq (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero hz]
  simp only [View.ld_unit_zero (S := S5000x128) hz]
  funext j
  obtain ⟨p, z, rfl⟩ := exists_ix2 (n0 := 5000) (n1 := 1) j
  obtain ⟨-, -, -, -, e0, e1⟩ := idx2 t
  have ht : t.val < 125 := lt_of_lt_of_eq t.isLt N_2
  have hr : t.val * 5000 + p.val < 625000 := by have := p.isLt; omega
  have hi : ((cfg2.win 2).blk t).view.emb (ix2 p z) = (ix2 ⟨t.val * 5000 + p.val, hr⟩ z : S625000x1.Idx) :=
    funext fun a => Fin.ext (by
      match a with
      | ⟨0, _⟩ => show win2_2.index t (0 : Fin 2) * 5000 + 1 * p.val = t.val * 5000 + p.val; omega
      | ⟨1, _⟩ => show win2_2.index t (1 : Fin 2) * 1 + 1 * z.val = z.val; omega)
  show k2_pay1 (iblk2 V c 0 t) (iblk2 V c 1 t) (ix2 p z) = G2 V c (((cfg2.win 2).blk t).view.emb (ix2 p z))
  rw [hi]
  exact pay2_block _ _ _ _ p z ⟨t.val * 5000 + p.val, hr⟩
    (fun k => blk2_0 V c t p k _ rfl) (fun k => blk2_1 V c t p k _ rfl)

/-- An index of the output array is in point t's block iff each coordinate is in the block's range on its axis. -/
theorem mem_blk2 (t : Fin cfg2.N) (i : S625000x1.Idx) :
    i ∈ ((cfg2.win 2).blk t).view.set ↔ ∀ a : Fin 2, win2_2.index t a * S5000x1.size a ≤ (i a).val ∧ (i a).val < win2_2.index t a * S5000x1.size a + S5000x1.size a := by
  show i ∈ ((View.whole main_v64).slice (win2_2.rect t)).set ↔ _
  rw [View.set_slice_whole, Rect.mem_set_unit]
  exact Iff.rfl

/-- Every edge of the output array is in the block of the point its quotient by 5000 names. -/
theorem cover2 (i : S625000x1.Idx) :
    ∃ t : Fin cfg2.N, (cfg2.win 2).flush t = true ∧ i ∈ ((cfg2.win 2).blk t).view.set := by
  have hi0 : (i 0).val < 625000 := (i 0).isLt
  have hi1 : (i 1).val < 1 := (i 1).isLt
  have hN : cfg2.N = 125 := N_2
  refine ⟨⟨(i 0).val / 5000, by rw [hN]; omega⟩, flush2_2 _, ?_⟩
  rw [mem_blk2]
  obtain ⟨-, -, -, -, e0, e1⟩ := idx2 ⟨(i 0).val / 5000, by rw [hN]; omega⟩
  intro a
  match a with
  | ⟨0, _⟩ =>
    show win2_2.index ⟨(i 0).val / 5000, _⟩ (0 : Fin 2) * 5000 ≤ (i 0).val ∧ (i 0).val < win2_2.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win2_2.index ⟨(i 0).val / 5000, _⟩ (1 : Fin 2) * 1 ≤ (i 1).val ∧ (i 1).val < win2_2.index ⟨(i 0).val / 5000, _⟩ (1 : Fin 2) * 1 + 1
    rw [e1]; omega

/-- The edge-score array after the region. -/
theorem final2 (c : Dev nD) : (dat2 V c).arrAt 2 cfg2.N = G2 V c :=
  (dat2 V c).arrAt_eq_of_cover 2 (G2 V c) (fun t _ => flushed2_eq V c t) cover2

/-- REGION 2: the edge-score array at (e, 0). -/
theorem region2_apply (c : Dev nD) (e : Fin 625000) (z : Fin 1) :
    ((dat2 V c).arrAt 2 cfg2.N : S625000x1.Idx → EReal) (ValueIdx.ix2 e z)
      = Cert.LayerAt.dotAt (V c main_v56) (V c main_v63) e := by
  rw [final2]

end Cert.KernelIdeal.RegionValues
end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.RefAt.lean ====
/-
  The shared host functions read at an index, at the ideal values: the linear layer on transposed weights is, at
  (r, q), the sum of the aggregated row times the left weights, the bias, and the node's row times the right weights;
  the maximum with zero is the maximum of the entry and 0; the reference's per-edge score at e is the sum over the
  features of the product of the two gathered rows. A bias vector viewed as a 1 × 128 row by a reshape is the same row
  a broadcast places it in.
-/
import proofs.«126099_j70437463654666_1_alg».proof.Proof.HostTerms
import proofs.«126099_j70437463654666_1_alg».proof.Proof.LayerAt
import proofs.«126099_j70437463654666_1_alg».proof.Proof.LibHostReads

noncomputable section

open scoped BigOperators

namespace Cert.HostTerms

open Cert.ReferenceIdeal Cert.ReferenceIdeal.Gen Idealize.ShloMosaic Idealize.ShloMosaic.ValueIdx

/-- The linear layer at (r, q). -/
theorem linT_apply (A H : (⟨S100000x128, .f32⟩ : BufTy).Contents (Elt Ideal)) (wl : (⟨S128x128, .f32⟩ : BufTy).Contents (Elt Ideal))
    (b : (⟨S1x128, .f32⟩ : BufTy).Contents (Elt Ideal)) (wr : (⟨S128x128, .f32⟩ : BufTy).Contents (Elt Ideal))
    (r : Fin 100000) (q : Fin 128) :
    linT (F := Ideal) A H wl b wr (ix2 r q) = Cert.LayerAt.linAt A H wl wr b r q := by
  unfold linT Cert.LayerAt.linAt
  show ((Host.dotGeneral (F := Ideal) (DotDims.plain 100000 128 128) none A wl (ix2 r q) : EReal)
      + (broadcastInDim ⟨2, ![100000, 128]⟩ ![0, 1] bcast_S1x128_S100000x128_0_1 b (ix2 r q) : EReal)
      + (Host.dotGeneral (F := Ideal) (DotDims.plain 100000 128 128) none H wr (ix2 r q) : EReal)) = _
  rw [Cert.LayerAt.hostDot_apply, Cert.LayerAt.hostDot_apply, HostReads.bcast_row_apply]

/-- The maximum with zero at an index. -/
theorem relu_apply (v : (⟨S100000x128, .f32⟩ : BufTy).Contents (Elt Ideal)) (i : S100000x128.Idx) :
    relu (F := Ideal) v i = max (v i) 0 := by
  show max (v i) (Ideal.ofBits .f32 0x00000000#32) = _
  rw [Ideal.ofBits_zero_f32]

/-- The reference's per-edge score at edge e. -/
theorem predOf_apply (x : (⟨S100000x128, .f32⟩ : BufTy).Contents (Elt Ideal)) (ei : (⟨S2x625000, .i32⟩ : BufTy).Contents (Elt Ideal))
    (e : Fin 625000) :
    predOf (F := Ideal) x ei (ix1 e)
      = ∑ k : Fin 128, rowsAt (F := Ideal) x (srcOf ei) (ix2 e k) * rowsAt (F := Ideal) x (dstOf ei) (ix2 e k) := by
  unfold predOf
  generalize rowsAt (F := Ideal) x (srcOf ei) = a
  generalize rowsAt (F := Ideal) x (dstOf ei) = b
  simp only [Host.reduceAdd, Ideal.hostReduceAdd_def]
  rw [HostReads.hostSum2_apply reducesTo_S625000x128_S625000_d1 (by decide)]
  show Ideal.ofBits .f32 0x00000000#32 + _ = _
  rw [Ideal.ofBits_zero_f32, zero_add]
  rfl

/-- A vector of 128 entries reshaped to a 1 × 128 row is the row a broadcast along a new leading axis gives. -/
theorem cast_row_eq {F : FTy → Type} [FloatOps F] (b : (⟨S128, .f32⟩ : BufTy).Contents (Elt F)) (h : S128.ShapeCasts S1x128) :
    shapeCast S1x128 b h = rowOf b := by
  funext i
  obtain ⟨z, j, rfl⟩ : ∃ (z : Fin 1) (j : Fin 128), i = ix2 z j := ⟨i 0, i 1, eq_ix2 i⟩
  unfold rowOf
  rw [HostReads.bcast_toRow_apply]
  exact shapeCast_apply b h (ix2 z j) (ix1 j) (by
    rw [Shape.rowMajor_val_one, Shape.rowMajor_val_two]
    show j.val = z.val * 128 + j.val
    have := z.isLt; omega)

end Cert.HostTerms

end
-- ==== Proof.KernelValue.lean ====
/-
  What the idealized kernel's two result buffers hold, as functions of the launch contents of its arguments.

  Node features. The first region writes, row block by row block, the maximum with zero of the linear layer of the
  neighbour mean of x; nothing later writes that array, the second host stretch reads it both as the features it
  gathers and averages and as the nodes' own rows, and the second region writes the linear layer of those: the two
  layers of the shared specification. Per-edge scores. The third region writes, for each edge, the sum over the 128
  features of the product of the rows of x at the edge's two ends into a one-column array, which the last reshape reads
  as a vector: the host's sum of the products, whose initial value is zero.
-/
import proofs.«126099_j70437463654666_1_alg».proof.Proof.KernelStages
import proofs.«126099_j70437463654666_1_alg».proof.Proof.RegionValues
import proofs.«126099_j70437463654666_1_alg».proof.Proof.RefAt

set_option maxRecDepth 16384

noncomputable section

open scoped BigOperators

namespace Cert.KernelIdeal.Result

open Cert.KernelIdeal Cert.KernelIdeal.Gen Cert.KernelIdeal.Stages Cert.HostTerms
open Idealize.ShloMosaic Idealize.ShloMosaic.TcCoe Idealize.SL.Sem Idealize.ShloMosaic.ValueIdx

variable (m : (ℓ : Loc nD τ sig) → Buf (Elt Ideal) ℓ) (ρ : Dev nD → PrngReg)

/-- The source and destination rows survive both host stretches and both layer regions. -/
theorem src2 (c : Dev nD) : W2 m ρ c (Proc.devRef .tc main_v1) = srcOf (F := Ideal) (m ((c : Thread nD τ).loc main_arg1)) := (s2_v1 m ρ c).trans (s1_v1 m ρ c)
theorem dst2 (c : Dev nD) : W2 m ρ c (Proc.devRef .tc main_v3) = dstOf (F := Ideal) (m ((c : Thread nD τ).loc main_arg1)) := (s2_v3 m ρ c).trans (s1_v3 m ρ c)
theorem src4 (c : Dev nD) : W4 m ρ c (Proc.devRef .tc main_v1) = srcOf (F := Ideal) (m ((c : Thread nD τ).loc main_arg1)) :=
  (s4_v1 m ρ c).trans ((s3_v1 m ρ c).trans (src2 m ρ c))
theorem dst4 (c : Dev nD) : W4 m ρ c (Proc.devRef .tc main_v3) = dstOf (F := Ideal) (m ((c : Thread nD τ).loc main_arg1)) :=
  (s4_v3 m ρ c).trans ((s3_v3 m ρ c).trans (dst2 m ρ c))
/-- The matrix x is as launched when the third region's inputs are gathered. -/
theorem x4 (c : Dev nD) : W4 m ρ c (Proc.devRef .tc main_arg0) = m ((c : Thread nD τ).loc main_arg0) :=
  (s4_arg0 m ρ c).trans ((s3_arg0 m ρ c).trans ((s2_arg0 m ρ c).trans (s1_arg0 m ρ c)))

/-- The first layer's result: what the first region leaves in its output array. -/
theorem layer1 (c : Dev nD) :
    W2 m ρ c (Proc.devRef .tc main_v26)
      = relu (F := Ideal) (layerOf (m ((c : Thread nD τ).loc main_arg0)) (srcOf (m ((c : Thread nD τ).loc main_arg1))) (dstOf (m ((c : Thread nD τ).loc main_arg1)))
          (m ((c : Thread nD τ).loc main_arg2)) (m ((c : Thread nD τ).loc main_arg3)) (m ((c : Thread nD τ).loc main_arg4))) := by
  refine (W2_arr m ρ c 5).trans ?_
  funext i
  obtain ⟨r, q, rfl⟩ : ∃ (r : Fin 100000) (q : Fin 128), i = ix2 r q := ⟨i 0, i 1, eq_ix2 i⟩
  refine (Cert.KernelIdeal.RegionValues.region0_apply (V1 m ρ) c r q).trans ?_
  have e22 : V1 m ρ c main_v22 = meanOf (F := Ideal) (m ((c : Thread nD τ).loc main_arg0)) (srcOf (m ((c : Thread nD τ).loc main_arg1))) (dstOf (m ((c : Thread nD τ).loc main_arg1))) := s1_v22 m ρ c
  have e0 : V1 m ρ c main_arg0 = m ((c : Thread nD τ).loc main_arg0) := s1_arg0 m ρ c
  have e23 : V1 m ρ c main_v23 = tr (F := Ideal) (m ((c : Thread nD τ).loc main_arg2)) := s1_v23 m ρ c
  have e24 : V1 m ρ c main_v24 = tr (F := Ideal) (m ((c : Thread nD τ).loc main_arg4)) := s1_v24 m ρ c
  have e25 : V1 m ρ c main_v25 = rowOf (F := Ideal) (m ((c : Thread nD τ).loc main_arg3)) := (s1_v25 m ρ c).trans (cast_row_eq _ _)
  rw [e22, e0, e23, e24, e25, relu_apply]
  unfold layerOf
  rw [linT_apply]

/-- The node features: what the second region leaves in its output array, never written again. -/
theorem feat (c : Dev nD) :
    W7 m ρ c (Proc.devRef .tc main_v49)
      = featOf (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) := by
  refine (s7_v49 m ρ c).trans ((s6_v49 m ρ c).trans ((s5_v49 m ρ c).trans ((W4_arr m ρ c 5).trans ?_)))
  funext i
  obtain ⟨r, q, rfl⟩ : ∃ (r : Fin 100000) (q : Fin 128), i = ix2 r q := ⟨i 0, i 1, eq_ix2 i⟩
  refine (Cert.KernelIdeal.RegionValues.region1_apply (V3 m ρ) c r q).trans ?_
  have e45 : V3 m ρ c main_v45 = meanOf (F := Ideal) (W2 m ρ c (Proc.devRef .tc main_v26)) (srcOf (m ((c : Thread nD τ).loc main_arg1))) (dstOf (m ((c : Thread nD τ).loc main_arg1))) := by
    refine (s3_v45 m ρ c).trans ?_
    rw [src2, dst2]
  have e26 : V3 m ρ c main_v26 = W2 m ρ c (Proc.devRef .tc main_v26) := s3_v26 m ρ c
  have e46 : V3 m ρ c main_v46 = tr (F := Ideal) (m ((c : Thread nD τ).loc main_arg5)) := by
    refine (s3_v46 m ρ c).trans ?_
    rw [s2_arg5, s1_arg5]
  have e47 : V3 m ρ c main_v47 = tr (F := Ideal) (m ((c : Thread nD τ).loc main_arg7)) := by
    refine (s3_v47 m ρ c).trans ?_
    rw [s2_arg7, s1_arg7]
  have e48 : V3 m ρ c main_v48 = rowOf (F := Ideal) (m ((c : Thread nD τ).loc main_arg6)) := by
    refine (s3_v48 m ρ c).trans ?_
    rw [s2_arg6, s1_arg6]
    exact cast_row_eq _ _
  rw [e45, e26, e46, e47, e48, layer1]
  unfold featOf
  generalize relu (F := Ideal) (layerOf (m ((c : Thread nD τ).loc main_arg0)) (srcOf (m ((c : Thread nD τ).loc main_arg1))) (dstOf (m ((c : Thread nD τ).loc main_arg1)))
          (m ((c : Thread nD τ).loc main_arg2)) (m ((c : Thread nD τ).loc main_arg3)) (m ((c : Thread nD τ).loc main_arg4))) = h1
  unfold layerOf
  rw [linT_apply]

/-- A one-column array read as a vector: entry e is entry (e, 0). -/
theorem col_apply {α : Type} (v : S625000x1.Idx → α) (h : S625000x1.ShapeCasts S625000) (e : Fin 625000) :
    shapeCast S625000 v h (ix1 e) = v (ix2 e 0) :=
  shapeCast_apply v h (ix1 e) (ix2 e 0) (by
    rw [Shape.rowMajor_val_one, Shape.rowMajor_val_two]
    show e.val * 1 + 0 = e.val
    omega)

/-- The per-edge scores: the third region's column, read as a vector. -/
theorem pred (c : Dev nD) :
    W7 m ρ c (Proc.devRef .tc main_v65) = predOf (F := Ideal) (m ((c : Thread nD τ).loc main_arg0)) (m ((c : Thread nD τ).loc main_arg1)) := by
  refine (s7_v65 m ρ c).trans ?_
  funext i
  obtain ⟨e, rfl⟩ : ∃ e : Fin 625000, i = ix1 e := ⟨i 0, eq_ix1 i⟩
  refine (col_apply (α := EReal) _ _ e).trans ?_
  refine (congrFun (W6_arr m ρ c 2) (ix2 e 0)).trans ?_
  refine (Cert.KernelIdeal.RegionValues.region2_apply (V5 m ρ) c e 0).trans ?_
  have e56 : V5 m ρ c main_v56 = rowsAt (F := Ideal) (m ((c : Thread nD τ).loc main_arg0)) (srcOf (m ((c : Thread nD τ).loc main_arg1))) := by
    refine (s5_v56 m ρ c).trans ?_
    rw [x4, src4]
  have e63 : V5 m ρ c main_v63 = rowsAt (F := Ideal) (m ((c : Thread nD τ).loc main_arg0)) (dstOf (m ((c : Thread nD τ).loc main_arg1))) := by
    refine (s5_v63 m ρ c).trans ?_
    rw [x4, dst4]
  rw [e56, e63]
  exact (predOf_apply _ _ e).symm

end Cert.KernelIdeal.Result

end
-- ==== Proof.lean ====
/-
  The certificate of a two-layer graph convolution with a per-edge dot-product scorer.

  The kernel keeps the gathers, the scatter-adds and the division by the in-degree on the host, exactly as the
  reference writes them, and runs three kernel regions: the first two compute, row block by row block, the linear
  layer mean · Wlᵀ + b + h · Wrᵀ (the first followed by a maximum with zero) as two matrix products into zero
  accumulators plus a broadcast bias row; the third computes, edge block by edge block, the sum over the 128 features of
  the product of the two gathered rows. At the ideal values a change of float format is the identity, a matrix product
  into a zero accumulator and the host's matrix product are the same sum over the contraction index, the bias row
  reshaped is the bias row broadcast, and a lane sum from zero is the host's sum with initial value zero. So both
  programs end with the same two functions of the arguments: the shared specification `featOf` for the node features
  and `predOf` for the scores. No step needs the inputs to be finite: only the meaning of each operation and the order
  of three summands are used. The idealization rewrote no operation, so that claim is trivial.
-/
import proofs.«126099_j70437463654666_1_alg».proof.Defs
import proofs.«126099_j70437463654666_1_alg».proof.Proof.Gen.Kernel
import proofs.«126099_j70437463654666_1_alg».proof.Proof.Gen.Kernel.Skeleton
import proofs.«126099_j70437463654666_1_alg».proof.Proof.Gen.Kernel.Launch
import proofs.«126099_j70437463654666_1_alg».proof.Proof.Gen.Kernel.Points
import proofs.«126099_j70437463654666_1_alg».proof.Proof.Gen.Kernel.Frame
import proofs.«126099_j70437463654666_1_alg».proof.Proof.Gen.KernelIdeal
import proofs.«126099_j70437463654666_1_alg».proof.Proof.Gen.KernelIdeal.Skeleton
import proofs.«126099_j70437463654666_1_alg».proof.Proof.Gen.KernelIdeal.Launch
import proofs.«126099_j70437463654666_1_alg».proof.Proof.Gen.KernelIdeal.Points
import proofs.«126099_j70437463654666_1_alg».proof.Proof.Gen.KernelIdeal.Frame
import proofs.«126099_j70437463654666_1_alg».proof.Proof.Gen.ReferenceIdeal
import proofs.«126099_j70437463654666_1_alg».proof.Proof.Gen.Pre_finite_inputs
import proofs.«126099_j70437463654666_1_alg».proof.Proof.Gen.ReferenceIdeal.Run
import proofs.«126099_j70437463654666_1_alg».proof.Proof.KernelRun
import proofs.«126099_j70437463654666_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem Cert.HostTerms

/-- The kernel as printed runs, faults nowhere and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the per-edge scores at `predOf` and the node features at `featOf` of the
    arguments they agree on. -/
theorem algebraic : Cert.algebraic_KernelIdeal_ReferenceIdeal := by
  intro m ρ m' ρ' _ hagree
  refine ⟨fun c => predOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => featOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Result.pred m ρ c), (h c).2.1.trans (Cert.KernelIdeal.Result.feat m ρ c), (h c).2.2⟩)
      (Cert.KernelIdeal.Named.run (F := Ideal) m ρ)
  · refine (θ_run Cert.ReferenceIdeal.defs _ _).mono (fun _ h c => ?_) (Cert.ReferenceIdeal.Value.run (F := Ideal) m' ρ')
    obtain ⟨h0, h1, hargs⟩ := h c
    obtain ⟨e0, e1, e2, e3, e4, e5, e6, e7⟩ := hagree c
    refine ⟨h0.trans ?_, h1.trans ?_, hargs⟩
    · show _ = predOf (F := Ideal) _ _
      rw [← e0, ← e1]
      unfold predOf rowsAt wrapIdx srcOf dstOf
      rfl
    · show _ = featOf (F := Ideal) _ _ _ _ _ _ _ _
      rw [← e0, ← e1, ← e2, ← e3, ← e4, ← e5, ← e6, ← e7]
      exact ref_feat m' c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
